-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x2 .f32) (main_arg1 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S3x8192 : Shape := ⟨2, ![3, 8192]⟩
abbrev S1x1 : Shape := ⟨2, ![1, 1]⟩
abbrev S2048x2 : Shape := ⟨2, ![2048, 2]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 21
  | .vmem => 4
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S3x8192, .f32⟩
  | .hbm, ⟨19, _⟩ => ⟨S1x1, .f32⟩
  | .hbm, ⟨20, _⟩ => ⟨S_, .f32⟩
  | .local _ .vmem, ⟨0, _⟩ => ⟨S2048x2, .f32⟩
  | .local _ .vmem, ⟨1, _⟩ => ⟨S2048x2, .f32⟩
  | .local _ .vmem, ⟨2, _⟩ => ⟨S3x8192, .f32⟩
  | .local _ .vmem, ⟨3, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S1x8192_1 : S8192.BroadcastsInDim S1x8192 (![1] : Fin 1 → Fin S1x8192.rank)
  concatenates_S1x8192_S1x8192_S1x8192_S3x8192_d0 : Shape.Concatenates [S1x8192, S1x8192, S1x8192] S3x8192 0
  inb_S2048x2_S2048x1_0_0 : ∀ a, (![0, 0] : Fin 2 → Nat) a + S2048x1.size a ≤ S2048x2.size a
  h_S2048x1 : 0 < S2048x1.numel
  inb_S2048x2_S2048x1_0_1 : ∀ a, (![0, 1] : Fin 2 → Nat) a + S2048x1.size a ≤ S2048x2.size a
  inb_S3x8192_S1x1024_0_0 : ∀ a, (![0, 0] : Fin 2 → Nat) a + S1x1024.size a ≤ S3x8192.size a
  h_S1x1024 : 0 < S1x1024.numel
  shapeCasts_S1x1024_S1x1024 : S1x1024.ShapeCasts S1x1024
  inb_S3x8192_S1x1024_1_0 : ∀ a, (![1, 0] : Fin 2 → Nat) a + S1x1024.size a ≤ S3x8192.size a
  inb_S3x8192_S1x1024_2_0 : ∀ a, (![2, 0] : Fin 2 → Nat) a + S1x1024.size a ≤ S3x8192.size a
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  inb_S3x8192_S1x1024_0_1024 : ∀ a, (![0, 1024] : Fin 2 → Nat) a + S1x1024.size a ≤ S3x8192.size a
  inb_S3x8192_S1x1024_1_1024 : ∀ a, (![1, 1024] : Fin 2 → Nat) a + S1x1024.size a ≤ S3x8192.size a
  inb_S3x8192_S1x1024_2_1024 : ∀ a, (![2, 1024] : Fin 2 → Nat) a + S1x1024.size a ≤ S3x8192.size a
  inb_S3x8192_S1x1024_0_2048 : ∀ a, (![0, 2048] : Fin 2 → Nat) a + S1x1024.size a ≤ S3x8192.size a
  inb_S3x8192_S1x1024_1_2048 : ∀ a, (![1, 2048] : Fin 2 → Nat) a + S1x1024.size a ≤ S3x8192.size a
  inb_S3x8192_S1x1024_2_2048 : ∀ a, (![2, 2048] : Fin 2 → Nat) a + S1x1024.size a ≤ S3x8192.size a
  inb_S3x8192_S1x1024_0_3072 : ∀ a, (![0, 3072] : Fin 2 → Nat) a + S1x1024.size a ≤ S3x8192.size a
  inb_S3x8192_S1x1024_1_3072 : ∀ a, (![1, 3072] : Fin 2 → Nat) a + S1x1024.size a ≤ S3x8192.size a
  inb_S3x8192_S1x1024_2_3072 : ∀ a, (![2, 3072] : Fin 2 → Nat) a + S1x1024.size a ≤ S3x8192.size a
  inb_S3x8192_S1x1024_0_4096 : ∀ a, (![0, 4096] : Fin 2 → Nat) a + S1x1024.size a ≤ S3x8192.size a
  inb_S3x8192_S1x1024_1_4096 : ∀ a, (![1, 4096] : Fin 2 → Nat) a + S1x1024.size a ≤ S3x8192.size a
  inb_S3x8192_S1x1024_2_4096 : ∀ a, (![2, 4096] : Fin 2 → Nat) a + S1x1024.size a ≤ S3x8192.size a
  inb_S3x8192_S1x1024_0_5120 : ∀ a, (![0, 5120] : Fin 2 → Nat) a + S1x1024.size a ≤ S3x8192.size a
  inb_S3x8192_S1x1024_1_5120 : ∀ a, (![1, 5120] : Fin 2 → Nat) a + S1x1024.size a ≤ S3x8192.size a
  inb_S3x8192_S1x1024_2_5120 : ∀ a, (![2, 5120] : Fin 2 → Nat) a + S1x1024.size a ≤ S3x8192.size a
  inb_S3x8192_S1x1024_0_6144 : ∀ a, (![0, 6144] : Fin 2 → Nat) a + S1x1024.size a ≤ S3x8192.size a
  inb_S3x8192_S1x1024_1_6144 : ∀ a, (![1, 6144] : Fin 2 → Nat) a + S1x1024.size a ≤ S3x8192.size a
  inb_S3x8192_S1x1024_2_6144 : ∀ a, (![2, 6144] : Fin 2 → Nat) a + S1x1024.size a ≤ S3x8192.size a
  inb_S3x8192_S1x1024_0_7168 : ∀ a, (![0, 7168] : Fin 2 → Nat) a + S1x1024.size a ≤ S3x8192.size a
  inb_S3x8192_S1x1024_1_7168 : ∀ a, (![1, 7168] : Fin 2 → Nat) a + S1x1024.size a ≤ S3x8192.size a
  inb_S3x8192_S1x1024_2_7168 : ∀ a, (![2, 7168] : Fin 2 → Nat) a + S1x1024.size a ≤ S3x8192.size a
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S8192x2.size a
  hwx0_0 : ∀ i : grid0.Coords, EltTy.bits .f32 = 32 ∨ (Rect.block (s := S8192x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x1x2 : Shape := ⟨3, ![8192, 1, 2]⟩
abbrev S1x8192x2 : Shape := ⟨3, ![1, 8192, 2]⟩
abbrev S8192x8192x2 : Shape := ⟨3, ![8192, 8192, 2]⟩
abbrev S_ : Shape := ⟨0, ![]⟩
abbrev S8192x8192 : Shape := ⟨2, ![8192, 8192]⟩
abbrev S8192 : Shape := ⟨1, ![8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x1x2, .f32⟩
  | .hbm, ⟨3, _⟩ => ⟨S1x8192x2, .f32⟩
  | .hbm, ⟨4, _⟩ => ⟨S8192x8192x2, .f32⟩
  | .hbm, ⟨5, _⟩ => ⟨S8192x8192x2, .f32⟩
  | .hbm, ⟨6, _⟩ => ⟨S8192x8192x2, .f32⟩
  | .hbm, ⟨7, _⟩ => ⟨S8192x8192x2, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S8192x2_S8192x1x2_0_2 : S8192x2.BroadcastsInDim S8192x1x2 (![0, 2] : Fin 2 → Fin S8192x1x2.rank)
  bcast_S8192x2_S1x8192x2_1_2 : S8192x2.BroadcastsInDim S1x8192x2 (![1, 2] : Fin 2 → Fin S1x8192x2.rank)
  bcast_S8192x1x2_S8192x8192x2_0_1_2 : S8192x1x2.BroadcastsInDim S8192x8192x2 (![0, 1, 2] : Fin 3 → Fin S8192x8192x2.rank)
  bcast_S1x8192x2_S8192x8192x2_0_1_2 : S1x8192x2.BroadcastsInDim S8192x8192x2 (![0, 1, 2] : Fin 3 → Fin S8192x8192x2.rank)
  reducesTo_S8192x8192x2_S8192x8192_d2 : S8192x8192x2.ReducesTo [2] S8192x8192
  h_S_ : 0 < S_.numel
  reducesTo_S8192x8192_S8192_d1 : S8192x8192.ReducesTo [1] S8192
  reducesTo_S8192_S_d0 : S8192.ReducesTo [0] S_

variable [Facts₀]

class Facts : Prop extends Facts₀ where

variable [Facts]
-- ==== Proof.K.Kit.lean ====
/-
  The program around its one region: the seventeen host operations before it (they cut the second point set into
  its two coordinate rows, scale them by -2, form the squared norms and stack the three rows), the region, and the
  one reshape after it. What each array holds when the region is entered, that neither argument array is written
  before or after it, and each window's block at a grid point.
-/
import proofs.«107251_g41154376630568_cont_8to1_b_1840_21_alg».proof.Proof.Gen.Kernel.Launch
import proofs.«107251_g41154376630568_cont_8to1_b_1840_21_alg».proof.Proof.Gen.Kernel.Skeleton
import proofs.«107251_g41154376630568_cont_8to1_b_1840_21_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The arrays' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the region writes the first point set: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write the second point set, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's likewise: it is fetched once, and its block is the whole array at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- For any proof data over the region-entry arrays, a run to the launch theorem's post, read at the two argument
    arrays — the first a staged input, the second staged by no window —, ends with both as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c))⟩) h

/-! ## The body's one branch -/

/-- The condition of the body's conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output window is live at every point. -/
theorem liveAt0_2 : ∀ t : Fin cfg0.N, cfg0.idle 2 (grid0.coords t) = false := by decide +kernel

/-- One staging buffer of the output window, through which its contents are stated. -/
abbrev VO0_2 : View sig .tc .vmem S1x1 .f32 := (Memref.whole cc0_stg2_0 : Memref sig .tc .vmem S1x1 .f32).view
/-- Each window's current staging memref at point `t`, as the region passes it to the body, and its wholeness. -/
abbrev ms0_0 (t : Fin cfg0.N) : Memref sig .tc .vmem S2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.Kernel.Hand

end
-- ==== Proof.K.RunA.lean ====
/-
  The body run once, at the first grid point (the conditional taken: the output entry is reset to zero before the point's scaled sum is added to it). The two inputs' staging buffers are read only; what the output's staging buffer
  ends with is found as the list of the body's stores into it.
-/
import proofs.«107251_g41154376630568_cont_8to1_b_1840_21_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output's staging memref in this case, with the proof that from whole
    staging memrefs — the inputs' at their contents, the output's at anything — the body runs to a continuation holding
    the inputs' as they were and the output's with those pieces written. -/
noncomputable def kernelRun0_A (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.RunB.lean ====
/-
  The body run once, at a later grid point (the conditional not taken: the point's scaled sum is added to what the point before left in the output entry). The two inputs' staging buffers are read only; what the output's staging buffer
  ends with is found as the list of the body's stores into it.
-/
import proofs.«107251_g41154376630568_cont_8to1_b_1840_21_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output's staging memref in this case, with the proof that from whole
    staging memrefs — the inputs' at their contents, the output's at its running contents — the body runs to a continuation holding
    the inputs' as they were and the output's with those pieces written. -/
noncomputable def kernelRun0_B (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.Frame.lean ====
/-
  The frame of the program: what the output's one entry holds after each grid point (reset and first scaled sum at
  the first point, the running total plus the point's scaled sum afterwards), the proof data of the region, the body's
  obligation at every point, the run, and the two argument arrays unchanged at the end.
-/
import proofs.«107251_g41154376630568_cont_8to1_b_1840_21_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the output's block cover it. -/
theorem cover0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the output's staging buffer: its stores read back. -/
def out0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) : Vec F S1x1 .f32 :=
  VO0_2.read (Elt F) (VO0_2.writes (Elt F) VO0_2.junk (kernelRun0_A c i arg1 harg1 arg2 harg2 arg3 harg3 hc0 x0 x1).1)

/-- A later point's store into the output's block covers it. -/
theorem cover0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves there, from what the point before left (`xo2`). -/
def out0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## The running total, point by point -/

/-- What the output's staging buffer holds after the body at position `n`: the first point's contents at the first
    point, a later point's over what position `n - 1` left. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first point. -/
theorem outsAt0_A (c : Dev nD) (t : Fin cfg0.N) (h0 : t.val % 4 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 4 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the output's at
    the running total; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: it is written back at the
    last point only. -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)) := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; at the first point the run resets the output, at a
    later one it finds the running total there; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 4 := lt_of_lt_of_eq t.isLt (show cfg0.N = 4 from N_0)
  by_cases h0 : t.val % 4 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what the
    proof data gives and every other buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves both point sets as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Kit.lean ====
/-
  The program around its one region: the seventeen host operations before it (they cut the second point set into
  its two coordinate rows, scale them by -2, form the squared norms and stack the three rows), the region, and the
  one reshape after it. What each array holds when the region is entered, that neither argument array is written
  before or after it, and each window's block at a grid point.
-/
import proofs.«107251_g41154376630568_cont_8to1_b_1840_21_alg».proof.Proof.Gen.KernelIdeal.Launch
import proofs.«107251_g41154376630568_cont_8to1_b_1840_21_alg».proof.Proof.Gen.KernelIdeal.Skeleton
import proofs.«107251_g41154376630568_cont_8to1_b_1840_21_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The arrays' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the region writes the first point set: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write the second point set, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second input's likewise: it is fetched once, and its block is the whole array at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- For any proof data over the region-entry arrays, a run to the launch theorem's post, read at the two argument
    arrays — the first a staged input, the second staged by no window —, ends with both as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c))⟩) h

/-! ## The body's one branch -/

/-- The condition of the body's conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output window is live at every point. -/
theorem liveAt0_2 : ∀ t : Fin cfg0.N, cfg0.idle 2 (grid0.coords t) = false := by decide +kernel

/-- One staging buffer of the output window, through which its contents are stated. -/
abbrev VO0_2 : View sig .tc .vmem S1x1 .f32 := (Memref.whole cc0_stg2_0 : Memref sig .tc .vmem S1x1 .f32).view
/-- Each window's current staging memref at point `t`, as the region passes it to the body, and its wholeness. -/
abbrev ms0_0 (t : Fin cfg0.N) : Memref sig .tc .vmem S2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI.RunA.lean ====
/-
  The body run once, at the first grid point (the conditional taken: the output entry is reset to zero before the point's scaled sum is added to it). The two inputs' staging buffers are read only; what the output's staging buffer
  ends with is found as the list of the body's stores into it.
-/
import proofs.«107251_g41154376630568_cont_8to1_b_1840_21_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output's staging memref in this case, with the proof that from whole
    staging memrefs — the inputs' at their contents, the output's at anything — the body runs to a continuation holding
    the inputs' as they were and the output's with those pieces written. -/
noncomputable def kernelRun0_A (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.RunB.lean ====
/-
  The body run once, at a later grid point (the conditional not taken: the point's scaled sum is added to what the point before left in the output entry). The two inputs' staging buffers are read only; what the output's staging buffer
  ends with is found as the list of the body's stores into it.
-/
import proofs.«107251_g41154376630568_cont_8to1_b_1840_21_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave in the output's staging memref in this case, with the proof that from whole
    staging memrefs — the inputs' at their contents, the output's at its running contents — the body runs to a continuation holding
    the inputs' as they were and the output's with those pieces written. -/
noncomputable def kernelRun0_B (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.Frame.lean ====
/-
  The frame of the program: what the output's one entry holds after each grid point (reset and first scaled sum at
  the first point, the running total plus the point's scaled sum afterwards), the proof data of the region, the body's
  obligation at every point, the run, and the two argument arrays unchanged at the end.
-/
import proofs.«107251_g41154376630568_cont_8to1_b_1840_21_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the output's block cover it. -/
theorem cover0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the output's staging buffer: its stores read back. -/
def out0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) : Vec F S1x1 .f32 :=
  VO0_2.read (Elt F) (VO0_2.writes (Elt F) VO0_2.junk (kernelRun0_A c i arg1 harg1 arg2 harg2 arg3 harg3 hc0 x0 x1).1)

/-- A later point's store into the output's block covers it. -/
theorem cover0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves there, from what the point before left (`xo2`). -/
def out0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## The running total, point by point -/

/-- What the output's staging buffer holds after the body at position `n`: the first point's contents at the first
    point, a later point's over what position `n - 1` left. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first point. -/
theorem outsAt0_A (c : Dev nD) (t : Fin cfg0.N) (h0 : t.val % 4 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 4 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the output's at
    the running total; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: it is written back at the
    last point only. -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)) := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; at the first point the run resets the output, at a
    later one it finds the running total there; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 4 := lt_of_lt_of_eq t.isLt (show cfg0.N = 4 from N_0)
  by_cases h0 : t.val % 4 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at what the
    proof data gives and every other buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves both point sets as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Step.lean ====
/-
  The body's arithmetic as one function of the two input blocks and the running total: the two coordinate columns of
  the block of points, the twenty-four runs of 1024 entries of the three stacked rows, the eight run minima joined,
  the squared norm added, the clamp, the root, the sum over the block's rows, the scale, the addition to the total.
-/
import proofs.«107251_g41154376630568_cont_8to1_b_1840_21_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one grid point stores into the output's entry, from the point's block `x0` of the first set, the stacked rows
    `x1` of the second, and the running total `acc`. -/
def step (x0 : Vec F S2048x2 .f32) (x1 : Vec F S3x8192 .f32) (acc : Vec F S1x1 .f32) : FVec F S1x1 .f32 :=
  k0_pay9
    (View.ld x0 (Rect.unit (s := S2048x2) ![0, 0] S2048x1.size inb_S2048x2_S2048x1_0_0))
    (View.ld x0 (Rect.unit (s := S2048x2) ![0, 1] S2048x1.size inb_S2048x2_S2048x1_0_1))
    (k0_pay1
      (View.ld x0 (Rect.unit (s := S2048x2) ![0, 0] S2048x1.size inb_S2048x2_S2048x1_0_0))
      (View.ld x0 (Rect.unit (s := S2048x2) ![0, 1] S2048x1.size inb_S2048x2_S2048x1_0_1)))
    (k0_pay6
      (View.ld x0 (Rect.unit (s := S2048x2) ![0, 0] S2048x1.size inb_S2048x2_S2048x1_0_0))
      (View.ld x0 (Rect.unit (s := S2048x2) ![0, 1] S2048x1.size inb_S2048x2_S2048x1_0_1))
      (k0_pay3
        (View.ld x0 (Rect.unit (s := S2048x2) ![0, 0] S2048x1.size inb_S2048x2_S2048x1_0_0))
        (View.ld x0 (Rect.unit (s := S2048x2) ![0, 1] S2048x1.size inb_S2048x2_S2048x1_0_1))
        (k0_pay2
          (View.ld x0 (Rect.unit (s := S2048x2) ![0, 0] S2048x1.size inb_S2048x2_S2048x1_0_0))
          (View.ld x0 (Rect.unit (s := S2048x2) ![0, 1] S2048x1.size inb_S2048x2_S2048x1_0_1))
          (View.ld x1 (Rect.unit (s := S3x8192) ![0, 0] S1x1024.size inb_S3x8192_S1x1024_0_0)) (View.ld x1 (Rect.unit (s := S3x8192) ![1, 0] S1x1024.size inb_S3x8192_S1x1024_1_0)) (View.ld x1 (Rect.unit (s := S3x8192) ![2, 0] S1x1024.size inb_S3x8192_S1x1024_2_0))
          (View.ld x1 (Rect.unit (s := S3x8192) ![0, 1024] S1x1024.size inb_S3x8192_S1x1024_0_1024)) (View.ld x1 (Rect.unit (s := S3x8192) ![1, 1024] S1x1024.size inb_S3x8192_S1x1024_1_1024)) (View.ld x1 (Rect.unit (s := S3x8192) ![2, 1024] S1x1024.size inb_S3x8192_S1x1024_2_1024)))
        (View.ld x1 (Rect.unit (s := S3x8192) ![0, 2048] S1x1024.size inb_S3x8192_S1x1024_0_2048)) (View.ld x1 (Rect.unit (s := S3x8192) ![1, 2048] S1x1024.size inb_S3x8192_S1x1024_1_2048)) (View.ld x1 (Rect.unit (s := S3x8192) ![2, 2048] S1x1024.size inb_S3x8192_S1x1024_2_2048))
        (View.ld x1 (Rect.unit (s := S3x8192) ![0, 3072] S1x1024.size inb_S3x8192_S1x1024_0_3072)) (View.ld x1 (Rect.unit (s := S3x8192) ![1, 3072] S1x1024.size inb_S3x8192_S1x1024_1_3072)) (View.ld x1 (Rect.unit (s := S3x8192) ![2, 3072] S1x1024.size inb_S3x8192_S1x1024_2_3072)))
      (k0_pay4 (View.ld x1 (Rect.unit (s := S3x8192) ![0, 4096] S1x1024.size inb_S3x8192_S1x1024_0_4096)))
      (k0_pay5 (View.ld x1 (Rect.unit (s := S3x8192) ![1, 4096] S1x1024.size inb_S3x8192_S1x1024_1_4096)))
      (View.ld x1 (Rect.unit (s := S3x8192) ![2, 4096] S1x1024.size inb_S3x8192_S1x1024_2_4096))
      (View.ld x1 (Rect.unit (s := S3x8192) ![0, 5120] S1x1024.size inb_S3x8192_S1x1024_0_5120)) (View.ld x1 (Rect.unit (s := S3x8192) ![1, 5120] S1x1024.size inb_S3x8192_S1x1024_1_5120)) (View.ld x1 (Rect.unit (s := S3x8192) ![2, 5120] S1x1024.size inb_S3x8192_S1x1024_2_5120)))
    (k0_pay7
      (View.ld x0 (Rect.unit (s := S2048x2) ![0, 0] S2048x1.size inb_S2048x2_S2048x1_0_0))
      (View.ld x0 (Rect.unit (s := S2048x2) ![0, 1] S2048x1.size inb_S2048x2_S2048x1_0_1))
      (View.ld x1 (Rect.unit (s := S3x8192) ![0, 6144] S1x1024.size inb_S3x8192_S1x1024_0_6144)) (View.ld x1 (Rect.unit (s := S3x8192) ![1, 6144] S1x1024.size inb_S3x8192_S1x1024_1_6144)) (View.ld x1 (Rect.unit (s := S3x8192) ![2, 6144] S1x1024.size inb_S3x8192_S1x1024_2_6144)))
    (View.ld x1 (Rect.unit (s := S3x8192) ![0, 7168] S1x1024.size inb_S3x8192_S1x1024_0_7168)) (View.ld x1 (Rect.unit (s := S3x8192) ![1, 7168] S1x1024.size inb_S3x8192_S1x1024_1_7168)) (View.ld x1 (Rect.unit (s := S3x8192) ![2, 7168] S1x1024.size inb_S3x8192_S1x1024_2_7168))
    acc

end Cert.KernelIdeal.Hand

end
-- ==== Proof.KI.Value.lean ====
/-
  The kernel's result as a value. Each grid point's stores into the output's entry, read back, are the body's
  arithmetic `step` of the point's two input blocks and the running total (the first point's total the zero it has
  just stored); so the entry after the last point is four steps from zero, that is what the one write-back (after the
  last point) puts in the result array, and the reshape after the region copies it to the scalar result.
-/
import proofs.«107251_g41154376630568_cont_8to1_b_1840_21_alg».proof.Proof.KI.Frame
import proofs.«107251_g41154376630568_cont_8to1_b_1840_21_alg».proof.Proof.KI.Step
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A later point leaves `step` of its blocks and of what it found. -/
theorem out_B (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole) (hc : ¬cond0_0 i)
    (x0 : Vec F S2048x2 .f32) (x1 : Vec F S3x8192 .f32) (xo : Vec F S1x1 .f32) :
    out0_B_2 c i a1 h1 a2 h2 a3 h3 hc x0 x1 xo = step x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  unfold step
  simp only [View.readAt_eq_ld, h1.read_unread, h2.read_unread, h3.read_unread, View.ld_unit_zero (S := S1x1) hz]

/-- The first point stores zero, reads it back, and leaves `step` of its blocks and of that zero. -/
theorem out_A (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole) (hc : cond0_0 i)
    (x0 : Vec F S2048x2 .f32) (x1 : Vec F S3x8192 .f32) :
    out0_A_2 c i a1 h1 a2 h2 a3 h3 hc x0 x1 = step x0 x1 (k0_pay8 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  unfold step
  simp only [View.readAt_eq_ld, h1.read_unread, h2.read_unread]

/-- The running total after point `n`: steps from zero, point by point. -/
def chain (c : Dev nD) : (n : ℕ) → n < cfg0.N → Vec F S1x1 .f32
  | 0, h => step (iblk m c 0 ⟨0, h⟩) (iblk m c 1 ⟨0, h⟩) (k0_pay8 (F := F))
  | n + 1, h => step (iblk m c 0 ⟨n + 1, h⟩) (iblk m c 1 ⟨n + 1, h⟩) (chain c n (Nat.lt_of_succ_lt h))

/-- What the output's staging buffer holds after point `n` is the running total. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 4 := N_0
    have hB : ¬(⟨n + 1, h⟩ : Fin cfg0.N).val % 4 = 0 := by dsimp only; omega
    rw [outsAt0_B m c ⟨n + 1, h⟩ hB, out_B]
    show step _ _ (outsAt0 m c n _) = step _ _ (chain m c n _)
    rw [outsAt_eq c n]

/-- The total after the last point, as contents of the region's result array (its one block is the array). -/
abbrev result (c : Dev nD) : Buf (Elt F) ((c : Thread nD τ).loc main_v15) := chain m c 3 (by rw [show cfg0.N = 4 from N_0]; decide)

/-- The one write-back, after the last point, writes it. -/
theorem flushed_eq (c : Dev nD) (t : Fin cfg0.N) (hf : (cfg0.win 2).flush t = true) :
    (dats m 0 c).flushed 2 t = ((cfg0.win 2).blk t).view.read (Elt F) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, outsAt_eq]
  have hz' : (fun a => win0_2.index t0_3 a * main_v15.ty.shape.size a) = fun _ => 0 := funext fun a => by fin_cases a <;> decide
  exact (Memref.read_access_unit_zero (Elt F) main_v15 hz' (fun a => by rw [congrFun hz' a]; simp) (result m c)).symm

/-- So the region's result array ends at the total after the last point. -/
theorem final_o (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v15).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The scalar result: the reshape after the region applied to the region's result array. -/
theorem tail_v16 (c : Dev nD) :
    Pipeline.afterTail₀ cfgs (dats m) 0 (V0 m) [hostOps1] c main_v16
      = shapeCast S_ (result m c) shapeCasts_S1x1_S_ := by
  unfold Pipeline.afterTail₀
  show StableHlo.after hostOps1 _ (Proc.devRef .tc main_v16) = _
  after_results
  rw [(Pipeline.withArrays_arr spec0 launch0.win.arr_inj c _ _ 2).trans (final_o m c)]
  rfl

/-- The run, read: the scalar result at the reshaped total, both point sets as launched. -/
theorem run : θ_run defs (onTc (τ := τ) (main (F := F))) ⟨m, fun _ => 0, ρ⟩ fun r => ∀ c : Dev nD,
      r.2.mem ((c.tc : Thread nD τ).loc main_v16) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_v16 m c),
     ((h c).1 0).trans (((dats m 0 c).arrAt_in 0 rfl _).trans ((A_eq m c 0).trans (V_main_arg0 m c))),
     (((h c).2 main_arg1 (Pipeline.mem_restRefs_of main_arg1 (by decide) (by decide))).trans (W_main_arg1 m (dats m) c))⟩) (run_main m ρ)

end Cert.KernelIdeal.Hand

end
-- ==== Proof.Spec.lean ====
/-
  The two programs' results as plain functions of the two point sets, on the extended reals.

  `a i` is point `i` of the first set (8192 points of the plane, coordinates `a i 0`, `a i 1`), `b j` point `j`
  of the second. The reference computes the mean over `i` of the distance from `a i` to its nearest `b j`:
  `(0 + ∑ i, min_j √(0 + ∑ k, (a i k - b j k)²)) / 8192`, the minimum a fold of `min` from `+∞`.

  The kernel expands the square: with `xs j = -2·b j 0`, `ys j = -2·b j 1`, `b2 j = (b j 0)² + (b j 1)²` and
  `n1 i = (a i 0)² + (a i 1)²`, the squared distance is `(a i 0·xs j + (a i 1·ys j + b2 j)) + n1 i`. It takes
  the minimum over `j` of the first summand in eight runs of 1024 (each a fold of `min` from `+∞`, the eight
  joined left to right), adds `n1 i`, clamps at `0` from below, takes the root, sums the roots of 2048
  consecutive points, scales that sum by `2⁻¹³ = 1/8192`, and adds the four scaled sums, left to right, to `0`.
-/
import Idealize.ShloMosaic.PureOps.Ideal
import Mathlib.Data.Finset.Fold

noncomputable section

namespace Cert.NearestMean

open Idealize.ShloMosaic

/-- The word `0xC0000000` (`-2`), `0x7F800000` (`+∞`), `0x39000000` (`2⁻¹³`), `0x46000000` (`8192`), each as
    the programs spell it. -/
abbrev wNeg2 : EReal := Ideal.ofBits .f32 0xC0000000#32
abbrev wInf : EReal := Ideal.ofBits .f32 0x7F800000#32
abbrev wInvN : EReal := Ideal.ofBits .f32 0x39000000#32
abbrev wN : EReal := Ideal.ofBits .f32 0x46000000#32

variable (a b : Fin 8192 → Fin 2 → EReal)

/-! ## The kernel's arrangement -/

def xs (j : Fin 8192) : EReal := wNeg2 * b j 0
def ys (j : Fin 8192) : EReal := wNeg2 * b j 1
def b2 (j : Fin 8192) : EReal := b j 0 * b j 0 + b j 1 * b j 1
def n1 (i : Fin 8192) : EReal := a i 0 * a i 0 + a i 1 * a i 1
/-- The cross term of the squared distance from `a i` to `b j`, as the kernel groups it. -/
def cross (i j : Fin 8192) : EReal := a i 0 * xs b j + (a i 1 * ys b j + b2 b j)

/-- Column `l` of run `k` is column `1024·k + l`. -/
def col (k : Fin 8) (l : Fin 1024) : Fin 8192 := ⟨1024 * k.val + l.val, by have := k.isLt; have := l.isLt; omega⟩
/-- Row `r` of block `t` is row `2048·t + r`. -/
def row (t : Fin 4) (r : Fin 2048) : Fin 8192 := ⟨2048 * t.val + r.val, by have := t.isLt; have := r.isLt; omega⟩

/-- The least cross term over run `k`: a fold of `min` from `+∞`. -/
def runMin (i : Fin 8192) (k : Fin 8) : EReal :=
  (Finset.univ : Finset (Fin 1024)).fold min wInf (fun l => cross a b i (col k l))

/-- The eight runs joined left to right. -/
def crossMin (i : Fin 8192) : EReal :=
  min (min (min (min (min (min (min (runMin a b i 0) (runMin a b i 1)) (runMin a b i 2)) (runMin a b i 3))
    (runMin a b i 4)) (runMin a b i 5)) (runMin a b i 6)) (runMin a b i 7)

/-- The kernel's distance from `a i` to the second set. -/
def kDist (i : Fin 8192) : EReal := Ideal.sqrt (max (crossMin a b i + n1 a i) 0)

/-- Block `t`'s scaled sum of distances. -/
def blockSum (t : Fin 4) : EReal := (∑ r : Fin 2048, kDist a b (row t r)) * wInvN

/-- What the kernel's one output entry ends at: the four scaled sums added to `0`, left to right. -/
def kernelOut : EReal := (((0 + blockSum a b 0) + blockSum a b 1) + blockSum a b 2) + blockSum a b 3

/-! ## The reference's arrangement -/

/-- The distance from `a i` to `b j`. -/
def rDist (i j : Fin 8192) : EReal := Ideal.sqrt (0 + ∑ k : Fin 2, (a i k - b j k) * (a i k - b j k))

/-- The distance from `a i` to its nearest `b j`: a fold of `min` from `+∞`. -/
def rMin (i : Fin 8192) : EReal := (Finset.univ : Finset (Fin 8192)).fold min wInf (fun j => rDist a b i j)

/-- The reference's result. -/
def refOut : EReal := Ideal.div (0 + ∑ i : Fin 8192, rMin a b i) wN

end Cert.NearestMean

end
-- ==== Proof.SpecBlock.lean ====
/-
  The kernel's arrangement one block at a time: the distance from one point `p` of the plane to the second set, read off
  the three rows `aux 0 = -2·x`, `aux 1 = -2·y`, `aux 2 = x² + y²` of the second set's coordinates, and one grid
  point's step — the running total plus the scaled sum of the block's 2048 distances. The whole result
  (`kernelOut`) is four such steps from zero.
-/
import proofs.«107251_g41154376630568_cont_8to1_b_1840_21_alg».proof.Proof.Spec

noncomputable section

namespace Cert.NearestMean

open Idealize.ShloMosaic

variable (p : Fin 2 → EReal) (aux : Fin 3 → Fin 8192 → EReal)

/-- The cross term of the squared distance from `p` to column `j`. -/
def crossG (j : Fin 8192) : EReal := p 0 * aux 0 j + (p 1 * aux 1 j + aux 2 j)

/-- Its least value over run `k`. -/
def runMinG (k : Fin 8) : EReal :=
  (Finset.univ : Finset (Fin 1024)).fold min wInf (fun l => crossG p aux (col k l))

/-- The eight runs joined left to right. -/
def crossMinG : EReal :=
  min (min (min (min (min (min (min (runMinG p aux 0) (runMinG p aux 1)) (runMinG p aux 2)) (runMinG p aux 3))
    (runMinG p aux 4)) (runMinG p aux 5)) (runMinG p aux 6)) (runMinG p aux 7)

/-- The distance from `p` to the second set. -/
def distG : EReal := Ideal.sqrt (max (crossMinG p aux + (p 0 * p 0 + p 1 * p 1)) 0)

/-- One grid point: the running total plus the scaled sum of the block's distances. -/
def stepG (blk : Fin 2048 → Fin 2 → EReal) (acc : EReal) : EReal := acc + (∑ r : Fin 2048, distG (blk r) aux) * wInvN

/-- The three rows the host stacks from the second point set. -/
def auxOf (b : Fin 8192 → Fin 2 → EReal) : Fin 3 → Fin 8192 → EReal
  | 0 => xs b
  | 1 => ys b
  | 2 => b2 b

theorem kDist_eq (a b : Fin 8192 → Fin 2 → EReal) (i : Fin 8192) : kDist a b i = distG (a i) (auxOf b) := rfl

/-- The kernel's result is four steps from zero, block by block. -/
theorem kernelOut_eq_steps (a b : Fin 8192 → Fin 2 → EReal) :
    kernelOut a b = stepG (auxOf b) (fun r => a (row 3 r)) (stepG (auxOf b) (fun r => a (row 2 r))
      (stepG (auxOf b) (fun r => a (row 1 r)) (stepG (auxOf b) (fun r => a (row 0 r)) 0))) := rfl

end Cert.NearestMean

end
-- ==== Proof.KI.StepRead.lean ====
/-
  The kernel body's arithmetic read at its one output entry, on the extended reals.

  Row `r` of the block of points carries the point `p = (x₀ r 0, x₀ r 1)`. Each of the eight runs multiplies the two
  coordinate columns, broadcast along 1024 lanes, with the run's slices of the three stacked rows, broadcast along
  the 2048 rows; at `(r, l)` this is the cross term `p 0 · aux 0 j + (p 1 · aux 1 j + aux 2 j)` at column
  `j = 1024·k + l`. A minimum along the lanes is the fold of `min` from `+∞` over the 1024 lanes, so the eight
  columns of minima, joined left to right, hold at row `r` the joined run minima of `p`. Adding the squared norm
  `p 0 · p 0 + p 1 · p 1`, clamping at `0` and taking the root gives the distance from `p` to the second set; the
  sum over a `[1, 2048, 1]` array is the sum over its middle coordinate, so the body's result is the running total
  plus the sum of the block's 2048 distances scaled by `2⁻¹³`.
-/
import proofs.«107251_g41154376630568_cont_8to1_b_1840_21_alg».proof.Proof.KI.Step
import proofs.«107251_g41154376630568_cont_8to1_b_1840_21_alg».proof.Proof.SpecBlock
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

namespace StepRead

/-! ## A block's column and a row's run, loaded -/

/-- The column load at offset `(0, o)` of the block of points reads, at row `r`, coordinate `o` of point `r`. -/
theorem ld_col (x0 : Vec Ideal S2048x2 .f32) (o : Nat)
    (inb : ∀ a, (![0, o] : Fin 2 → Nat) a + S2048x1.size a ≤ S2048x2.size a) (r : Fin 2048) (u : Fin 1) (k : Fin 2)
    (hk : k.val = o) :
    View.ld x0 (Rect.unit (s := S2048x2) ![0, o] S2048x1.size inb) (ix2 r u) = x0 (ix2 r k) :=
  congrArg x0 (funext fun a => Fin.ext (by
    match a with
    | ⟨0, _⟩ => show 0 + 1 * r.val = r.val; omega
    | ⟨1, _⟩ => show o + 1 * u.val = k.val; omega))

/-- The run load at offset `(q, o)` of the stacked rows reads, at lane `l`, entry `o + l` of row `q`. -/
theorem ld_row (x1 : Vec Ideal S3x8192 .f32) (q o : Nat)
    (inb : ∀ a, (![q, o] : Fin 2 → Nat) a + S1x1024.size a ≤ S3x8192.size a) (u : Fin 1) (l : Fin 1024) (q' : Fin 3)
    (j : Fin 8192) (hq : q'.val = q) (hj : j.val = o + l.val) :
    View.ld x1 (Rect.unit (s := S3x8192) ![q, o] S1x1024.size inb) (ix2 u l) = x1 (ix2 q' j) :=
  congrArg x1 (funext fun a => Fin.ext (by
    match a with
    | ⟨0, _⟩ => show q + 1 * u.val = q'.val; omega
    | ⟨1, _⟩ => show o + 1 * l.val = j.val; omega))

/-! ## The layout operations of one run -/

/-- A column broadcast along the lanes reads its row's entry. -/
theorem bcast_col (v : FVec Ideal S2048x1 .f32) (h : S2048x1.Broadcasts S2048x1024) (r : Fin 2048) (l : Fin 1024) :
    broadcastTo S2048x1024 v h (ix2 r l) = v (ix2 r (0 : Fin 1)) :=
  broadcastTo_apply v h (ix2 r l) (ix2 r (0 : Fin 1)) fun a => by
    match a with
    | ⟨0, _⟩ => show r.val = if (2048 : ℕ) = 1 then 0 else r.val; rw [if_neg (by decide)]
    | ⟨1, _⟩ => show (0 : ℕ) = if (1 : ℕ) = 1 then 0 else l.val; rw [if_pos rfl]

/-- A vector of 2048 entries cast to a column reads, at row `r`, entry `r`. -/
theorem cast_col (v : FVec Ideal S2048 .f32) (h : S2048.ShapeCasts S2048x1) (r : Fin 2048) (u : Fin 1) :
    shapeCast S2048x1 v h (ix2 r u) = v (ix1 r) :=
  shapeCast_apply v h _ _ (by
    rw [Shape.rowMajor_val_one, Shape.rowMajor_val_two]
    show r.val = r.val * 1 + u.val
    omega)

/-- A minimum over one axis is the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the lanes of a 2048 × 1024 matrix, at row `r`. -/
theorem minRed_apply (M : FVec Ideal S2048x1024 .f32) (h : S2048x1024.Reduces [1] S2048) (hφ : FKind.Formats .f32)
    (hacc : (0x7F800000#32 : BitVec FTy.f32.bits) = FKind.minimumf.neutral .f32 hφ) (r : Fin 2048) :
    multiReduction (F := Ideal) .minimumf [1] S2048 M 0x7F800000#32 h hφ hacc (ix1 r)
      = (Finset.univ : Finset (Fin 1024)).fold min Cert.NearestMean.wInf (fun l => M (ix2 r l)) :=
  (multiReduction_minimumf_single M _ h hφ hacc (ix1 r)).trans
    (congrArg (fun f => (Finset.univ : Finset (Fin 1024)).fold min Cert.NearestMean.wInf f)
      (funext fun l => congrArg M (funext fun a => Fin.ext (by match a with | ⟨0, _⟩ => rfl | ⟨1, _⟩ => rfl))))

/-- The least cross term over a run's lanes, from a point's two coordinates and the run's three rows. -/
def runE (c0 c1 : EReal) (a0 a1 a2 : FVec Ideal S1x1024 .f32) : EReal :=
  (Finset.univ : Finset (Fin 1024)).fold min Cert.NearestMean.wInf
    (fun l => c0 * a0 (ix2 (0 : Fin 1) l) + (c1 * a1 (ix2 (0 : Fin 1) l) + a2 (ix2 (0 : Fin 1) l)))

/-! ## One run: the least cross term of a row's point over 1024 lanes -/

/-- A matrix reduced along the lanes and cast to a column, at row `r`. -/
theorem runM_apply (M : FVec Ideal S2048x1024 .f32) (hφ : FKind.Formats .f32)
    (hacc : (0x7F800000#32 : BitVec FTy.f32.bits) = FKind.minimumf.neutral .f32 hφ) (r : Fin 2048) (u : Fin 1) :
    shapeCast S2048x1 (multiReduction (F := Ideal) .minimumf [1] S2048 M 0x7F800000#32 reduces_S2048x1024_S2048 hφ hacc)
        shapeCasts_S2048_S2048x1 (ix2 r u)
      = (Finset.univ : Finset (Fin 1024)).fold min Cert.NearestMean.wInf (fun l => M (ix2 r l)) :=
  (cast_col _ _ r u).trans (minRed_apply M _ hφ hacc r)

/-- The cross-term matrix of one run, reduced along the lanes and cast to a column, at row `r`: the fold of `min`
    from `+∞` over the run's lanes of the cross term of the row's point. -/
theorem run_apply (v0 v1 : FVec Ideal S2048x1 .f32) (a0 a1 a2 : FVec Ideal S1x1024 .f32) (hφ : FKind.Formats .f32)
    (hacc : (0x7F800000#32 : BitVec FTy.f32.bits) = FKind.minimumf.neutral .f32 hφ) (r : Fin 2048) (u : Fin 1) :
    shapeCast S2048x1 (multiReduction (F := Ideal) .minimumf [1] S2048
        (addf (mulf (broadcastTo S2048x1024 v0 broadcasts_S2048x1_S2048x1024)
                    (broadcastTo S2048x1024 a0 broadcasts_S1x1024_S2048x1024))
          (addf (mulf (broadcastTo S2048x1024 v1 broadcasts_S2048x1_S2048x1024)
                      (broadcastTo S2048x1024 a1 broadcasts_S1x1024_S2048x1024))
                (broadcastTo S2048x1024 a2 broadcasts_S1x1024_S2048x1024)))
        0x7F800000#32 reduces_S2048x1024_S2048 hφ hacc) shapeCasts_S2048_S2048x1 (ix2 r u)
      = runE (v0 (ix2 r (0 : Fin 1))) (v1 (ix2 r (0 : Fin 1))) a0 a1 a2 := by
  refine (runM_apply _ hφ hacc r u).trans ?_
  unfold runE
  refine congrArg (fun f => (Finset.univ : Finset (Fin 1024)).fold min Cert.NearestMean.wInf f) (funext fun l => ?_)
  show broadcastTo S2048x1024 v0 broadcasts_S2048x1_S2048x1024 (ix2 r l)
        * broadcastTo S2048x1024 a0 broadcasts_S1x1024_S2048x1024 (ix2 r l)
      + (broadcastTo S2048x1024 v1 broadcasts_S2048x1_S2048x1024 (ix2 r l)
          * broadcastTo S2048x1024 a1 broadcasts_S1x1024_S2048x1024 (ix2 r l)
        + broadcastTo S2048x1024 a2 broadcasts_S1x1024_S2048x1024 (ix2 r l)) = _
  rw [bcast_col v0, bcast_col v1, broadcastTo_1b_ab_apply a0, broadcastTo_1b_ab_apply a1, broadcastTo_1b_ab_apply a2]

/-- The same with the three rows passed through the identity cast the program prints. -/
theorem run_apply' (v0 v1 : FVec Ideal S2048x1 .f32) (a0 a1 a2 : FVec Ideal S1x1024 .f32) (hφ : FKind.Formats .f32)
    (hacc : (0x7F800000#32 : BitVec FTy.f32.bits) = FKind.minimumf.neutral .f32 hφ) (r : Fin 2048) (u : Fin 1) :
    shapeCast S2048x1 (multiReduction (F := Ideal) .minimumf [1] S2048
        (addf (mulf (broadcastTo S2048x1024 v0 broadcasts_S2048x1_S2048x1024)
                    (broadcastTo S2048x1024 (shapeCast S1x1024 a0 shapeCasts_S1x1024_S1x1024) broadcasts_S1x1024_S2048x1024))
          (addf (mulf (broadcastTo S2048x1024 v1 broadcasts_S2048x1_S2048x1024)
                      (broadcastTo S2048x1024 (shapeCast S1x1024 a1 shapeCasts_S1x1024_S1x1024) broadcasts_S1x1024_S2048x1024))
                (broadcastTo S2048x1024 (shapeCast S1x1024 a2 shapeCasts_S1x1024_S1x1024) broadcasts_S1x1024_S2048x1024)))
        0x7F800000#32 reduces_S2048x1024_S2048 hφ hacc) shapeCasts_S2048_S2048x1 (ix2 r u)
      = runE (v0 (ix2 r (0 : Fin 1))) (v1 (ix2 r (0 : Fin 1))) a0 a1 a2 := by
  rw [shapeCast_self a0, shapeCast_self a1, shapeCast_self a2]
  exact run_apply v0 v1 a0 a1 a2 hφ hacc r u

/-! ## The payloads at a row -/

/-- The squared norm of row `r`'s point. -/
theorem pay1_apply (v0 v1 : FVec Ideal S2048x1 .f32) (i : S2048x1.Idx) :
    k0_pay1 (F := Ideal) v0 v1 i = v0 i * v0 i + v1 i * v1 i := rfl

/-- Runs 0 and 1 joined. -/
theorem pay2_apply (v0 v1 : FVec Ideal S2048x1 .f32) (v5 v7 v9 v22 v24 v26 : FVec Ideal S1x1024 .f32) (r : Fin 2048)
    (u : Fin 1) :
    k0_pay2 (F := Ideal) v0 v1 v5 v7 v9 v22 v24 v26 (ix2 r u)
      = min (runE (v0 (ix2 r (0 : Fin 1))) (v1 (ix2 r (0 : Fin 1))) v5 v7 v9)
          (runE (v0 (ix2 r (0 : Fin 1))) (v1 (ix2 r (0 : Fin 1))) v22 v24 v26) := by
  unfold k0_pay2
  refine (minimumf_apply _ _ _).trans ?_
  exact congrArg₂ min (run_apply' v0 v1 v5 v7 v9 _ _ r u) (run_apply' v0 v1 v22 v24 v26 _ _ r u)

/-- Runs 2 and 3 joined to what came before. -/
theorem pay3_apply (v0 v1 v39 : FVec Ideal S2048x1 .f32) (v40 v42 v44 v58 v60 v62 : FVec Ideal S1x1024 .f32)
    (r : Fin 2048) (u : Fin 1) :
    k0_pay3 (F := Ideal) v0 v1 v39 v40 v42 v44 v58 v60 v62 (ix2 r u)
      = min (min (v39 (ix2 r u)) (runE (v0 (ix2 r (0 : Fin 1))) (v1 (ix2 r (0 : Fin 1))) v40 v42 v44))
          (runE (v0 (ix2 r (0 : Fin 1))) (v1 (ix2 r (0 : Fin 1))) v58 v60 v62) := by
  unfold k0_pay3
  refine (minimumf_apply _ _ _).trans ?_
  refine congrArg₂ min ?_ (run_apply' v0 v1 v58 v60 v62 _ _ r u)
  refine (minimumf_apply _ _ _).trans ?_
  exact congrArg (min (v39 (ix2 r u))) (run_apply' v0 v1 v40 v42 v44 _ _ r u)

/-- The two identity casts of run 4's first two rows. -/
theorem pay4_eq (v : FVec Ideal S1x1024 .f32) : k0_pay4 (F := Ideal) v = v := by
  unfold k0_pay4
  exact shapeCast_self v _
theorem pay5_eq (v : FVec Ideal S1x1024 .f32) : k0_pay5 (F := Ideal) v = v := by
  unfold k0_pay5
  exact shapeCast_self v _

/-- Runs 4 and 5 joined to what came before. -/
theorem pay6_apply (v0 v1 v75 : FVec Ideal S2048x1 .f32) (v77 v79 v80 v94 v96 v98 : FVec Ideal S1x1024 .f32)
    (r : Fin 2048) (u : Fin 1) :
    k0_pay6 (F := Ideal) v0 v1 v75 v77 v79 v80 v94 v96 v98 (ix2 r u)
      = min (min (v75 (ix2 r u)) (runE (v0 (ix2 r (0 : Fin 1))) (v1 (ix2 r (0 : Fin 1))) v77 v79 v80))
          (runE (v0 (ix2 r (0 : Fin 1))) (v1 (ix2 r (0 : Fin 1))) v94 v96 v98) := by
  unfold k0_pay6
  refine (minimumf_apply _ _ _).trans ?_
  refine congrArg₂ min ?_ (run_apply' v0 v1 v94 v96 v98 _ _ r u)
  refine (minimumf_apply _ _ _).trans ?_
  refine congrArg (min (v75 (ix2 r u))) ?_
  refine (run_apply v0 v1 v77 v79 (shapeCast S1x1024 v80 shapeCasts_S1x1024_S1x1024) _ _ r u).trans ?_
  rw [shapeCast_self v80]

/-- Run 6's cross-term matrix. -/
theorem pay7_apply (v0 v1 : FVec Ideal S2048x1 .f32) (v112 v114 v116 : FVec Ideal S1x1024 .f32) (r : Fin 2048)
    (l : Fin 1024) :
    k0_pay7 (F := Ideal) v0 v1 v112 v114 v116 (ix2 r l)
      = v0 (ix2 r (0 : Fin 1)) * v112 (ix2 (0 : Fin 1) l)
        + (v1 (ix2 r (0 : Fin 1)) * v114 (ix2 (0 : Fin 1) l) + v116 (ix2 (0 : Fin 1) l)) := by
  unfold k0_pay7
  rw [addf_apply, addf_apply, mulf_apply, mulf_apply, shapeCast_self v112, shapeCast_self v114, shapeCast_self v116,
    bcast_col v0, bcast_col v1, broadcastTo_1b_ab_apply v112, broadcastTo_1b_ab_apply v114, broadcastTo_1b_ab_apply v116]

/-- Its least entry along the lanes at row `r` is run 6's least cross term. -/
theorem fold_pay7 (v0 v1 : FVec Ideal S2048x1 .f32) (v112 v114 v116 : FVec Ideal S1x1024 .f32) (r : Fin 2048) :
    (Finset.univ : Finset (Fin 1024)).fold min Cert.NearestMean.wInf
        (fun l => k0_pay7 (F := Ideal) v0 v1 v112 v114 v116 (ix2 r l))
      = runE (v0 (ix2 r (0 : Fin 1))) (v1 (ix2 r (0 : Fin 1))) v112 v114 v116 := by
  unfold runE
  exact congrArg (fun f => (Finset.univ : Finset (Fin 1024)).fold min Cert.NearestMean.wInf f)
    (funext fun l => pay7_apply v0 v1 v112 v114 v116 r l)

/-! ## The sum over the block's rows, the scale and the running total -/

/-- The index set of shape `[1, n, 1]` is the middle coordinate's range … -/
def idxEquiv1n1 (n : Nat) : (⟨3, ![1, n, 1]⟩ : Shape).Idx ≃ Fin n where
  toFun i := i 1
  invFun r := ix3 (0 : Fin 1) r (0 : Fin 1)
  left_inv i := by
    funext a
    match a with
    | ⟨0, _⟩ => exact Fin.ext (Nat.lt_one_iff.1 (i 0).isLt).symm
    | ⟨1, _⟩ => rfl
    | ⟨2, _⟩ => exact Fin.ext (Nat.lt_one_iff.1 (i 2).isLt).symm
  right_inv _ := rfl

/-- … so a sum over it is the sum over the middle coordinate. -/
theorem sum_1n1 {n : Nat} (f : (⟨3, ![1, n, 1]⟩ : Shape).Idx → EReal) :
    ∑ i, f i = ∑ r : Fin n, f (ix3 (0 : Fin 1) r (0 : Fin 1)) :=
  (Equiv.sum_comp (idxEquiv1n1 n).symm f).symm

/-- An extraction at a static position reads that entry. -/
theorem extractAt_apply {s : Shape} {α : Type} (pos : Fin s.rank → Nat) (x : s.Idx → α) (h : ∀ a, pos a < s.size a) :
    extractAt pos x h = x (fun a => ⟨pos a, h a⟩) := rfl

/-- The root at an index. -/
theorem sqrt_apply {s : Shape} {φ : FTy} (a : FVec Ideal s φ) (i : s.Idx) : sqrt a i = Ideal.sqrt (a i) := rfl

/-- The column of distances summed over the block, scaled, and added to the running total. -/
theorem tail_apply (d : FVec Ideal S2048x1 .f32) (acc : FVec Ideal S1x1 .f32) (hφ : FKind.Formats .f32)
    (hacc : (0x00000000#32 : BitVec FTy.f32.bits) = FKind.add.neutral .f32 hφ) (j : S1x1.Idx) :
    addf (shapeCast S1x1 acc shapeCasts_S1x1_S1x1)
      (mulf (broadcast S1x1 (extractAt ![0, 0, 0]
              (shapeCast S1x1x1 (multiReduction (F := Ideal) .add [1, 2] S1
                (shapeCast S1x2048x1 d shapeCasts_S2048x1_S1x2048x1) 0x00000000#32 reduces_S1x2048x1_S1 hφ hacc)
                shapeCasts_S1_S1x1x1) inpos_S1x1x1_p0_0_0))
        (broadcast S1x1 (Scalar.ofBits (F := Ideal) .f32 0x39000000#32))) j
      = acc j + (∑ r : Fin 2048, d (ix2 r (0 : Fin 1))) * Cert.NearestMean.wInvN := by
  rw [addf_apply, mulf_apply, broadcast_apply, broadcast_apply, shapeCast_self acc, extractAt_apply]
  refine congrArg (fun s => acc j + s * Cert.NearestMean.wInvN) ?_
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x2048x1_S1 (fun b => by match b with | ⟨0, _⟩ => rfl) hφ hacc
    (ix1 (0 : Fin 1))).trans ?_
  refine (sum_1n1 _).trans (Finset.sum_congr rfl fun r _ => ?_)
  exact shapeCast_ab_1ab_apply d shapeCasts_S2048x1_S1x2048x1 (0 : Fin 1) r (0 : Fin 1)

/-- The last payload: the eight runs joined, the squared norm added, the clamp, the root, the block's sum scaled and
    added to the running total. -/
theorem pay9_apply (v0 v1 v4 v111 : FVec Ideal S2048x1 .f32) (v126 : FVec Ideal S2048x1024 .f32)
    (v130 v132 v134 : FVec Ideal S1x1024 .f32) (v162 : FVec Ideal S1x1 .f32) (j : S1x1.Idx) :
    k0_pay9 (F := Ideal) v0 v1 v4 v111 v126 v130 v132 v134 v162 j
      = v162 j + (∑ r : Fin 2048, Ideal.sqrt (max
          (min (min (v111 (ix2 r (0 : Fin 1)))
                 ((Finset.univ : Finset (Fin 1024)).fold min Cert.NearestMean.wInf (fun l => v126 (ix2 r l))))
               (runE (v0 (ix2 r (0 : Fin 1))) (v1 (ix2 r (0 : Fin 1))) v130 v132 v134)
            + v4 (ix2 r (0 : Fin 1))) 0)) * Cert.NearestMean.wInvN := by
  unfold k0_pay9
  refine (tail_apply _ v162 _ _ j).trans ?_
  refine congrArg (fun s => v162 j + s * Cert.NearestMean.wInvN) (Finset.sum_congr rfl fun r _ => ?_)
  refine (sqrt_apply _ _).trans (congrArg Ideal.sqrt ?_)
  refine (maximumf_apply _ _ _).trans (congrArg₂ max ?_ ?_)
  · refine (addf_apply _ _ _).trans (congrArg (fun x => x + v4 (ix2 r (0 : Fin 1))) ?_)
    refine (minimumf_apply _ _ _).trans (congrArg₂ min ?_ (run_apply' v0 v1 v130 v132 v134 _ _ r 0))
    refine (minimumf_apply _ _ _).trans (congrArg (min (v111 (ix2 r (0 : Fin 1)))) ?_)
    exact runM_apply v126 _ _ r 0
  · exact (broadcast_apply _ _).trans Ideal.ofBits_zero_f32

/-! ## The loaded rows and columns -/

/-- A run's least cross term read off the loaded runs of the three stacked rows is the run's `runMinG`. -/
theorem runE_ld (x1 : Vec Ideal S3x8192 .f32) (p : Fin 2 → EReal) (o : Nat)
    (inb0 : ∀ a, (![0, o] : Fin 2 → Nat) a + S1x1024.size a ≤ S3x8192.size a)
    (inb1 : ∀ a, (![1, o] : Fin 2 → Nat) a + S1x1024.size a ≤ S3x8192.size a)
    (inb2 : ∀ a, (![2, o] : Fin 2 → Nat) a + S1x1024.size a ≤ S3x8192.size a) (k : Fin 8) (hk : o = 1024 * k.val) :
    runE (p 0) (p 1) (View.ld (Val := Elt Ideal) (e' := EltTy.f32) x1 (Rect.unit (s := S3x8192) ![0, o] S1x1024.size inb0))
        (View.ld (Val := Elt Ideal) (e' := EltTy.f32) x1 (Rect.unit (s := S3x8192) ![1, o] S1x1024.size inb1))
        (View.ld (Val := Elt Ideal) (e' := EltTy.f32) x1 (Rect.unit (s := S3x8192) ![2, o] S1x1024.size inb2))
      = Cert.NearestMean.runMinG p (fun q l => x1 (ix2 q l)) k := by
  unfold runE Cert.NearestMean.runMinG Cert.NearestMean.crossG
  refine congrArg (fun f => (Finset.univ : Finset (Fin 1024)).fold min Cert.NearestMean.wInf f) (funext fun l => ?_)
  have hj : (Cert.NearestMean.col k l).val = o + l.val := by rw [hk]; rfl
  rw [ld_row x1 0 o inb0 0 l 0 _ rfl hj, ld_row x1 1 o inb1 0 l 1 _ rfl hj, ld_row x1 2 o inb2 0 l 2 _ rfl hj]

end StepRead

/-- One grid point's stored entry is the block's step: the running total plus the scaled sum of the block's distances. -/
theorem step_apply (x0 : Vec Ideal S2048x2 .f32) (x1 : Vec Ideal S3x8192 .f32) (acc : Vec Ideal S1x1 .f32) (j : S1x1.Idx) :
    step (F := Ideal) x0 x1 acc j
      = Cert.NearestMean.stepG (fun q l => x1 (ix2 q l)) (fun r k => x0 (ix2 r k)) (acc j) := by
  unfold step
  refine (StepRead.pay9_apply _ _ _ _ _ _ _ _ acc j).trans ?_
  unfold Cert.NearestMean.stepG
  refine congrArg (fun s => acc j + s * Cert.NearestMean.wInvN) (Finset.sum_congr rfl fun r _ => ?_)
  rw [StepRead.fold_pay7, StepRead.pay6_apply, StepRead.pay3_apply, StepRead.pay2_apply, StepRead.pay4_eq,
    StepRead.pay5_eq, StepRead.pay1_apply, StepRead.ld_col x0 0 _ r 0 0 rfl, StepRead.ld_col x0 1 _ r 0 1 rfl]
  rw [StepRead.runE_ld x1 (fun k => x0 (ix2 r k)) 0 _ _ _ 0 rfl,
    StepRead.runE_ld x1 (fun k => x0 (ix2 r k)) 1024 _ _ _ 1 rfl,
    StepRead.runE_ld x1 (fun k => x0 (ix2 r k)) 2048 _ _ _ 2 rfl,
    StepRead.runE_ld x1 (fun k => x0 (ix2 r k)) 3072 _ _ _ 3 rfl,
    StepRead.runE_ld x1 (fun k => x0 (ix2 r k)) 4096 _ _ _ 4 rfl,
    StepRead.runE_ld x1 (fun k => x0 (ix2 r k)) 5120 _ _ _ 5 rfl,
    StepRead.runE_ld x1 (fun k => x0 (ix2 r k)) 6144 _ _ _ 6 rfl,
    StepRead.runE_ld x1 (fun k => x0 (ix2 r k)) 7168 _ _ _ 7 rfl]
  unfold Cert.NearestMean.distG Cert.NearestMean.crossMinG
  rfl

/-- The zero the first grid point's running total starts from. -/
theorem pay8_apply (j : S1x1.Idx) : k0_pay8 (F := Ideal) j = 0 := by
  unfold k0_pay8
  exact (broadcast_apply _ _).trans Ideal.ofBits_zero_f32

end Cert.KernelIdeal.Hand

end
-- ==== Proof.KI.Arrays.lean ====
/-
  What the region finds in its two input windows. The second window is the whole [3, 8192] array the host stacks
  from the second point set before the region: row 0 is -2 times the first coordinates, row 1 is -2 times the second
  coordinates, row 2 the squared norms. The first window's block at grid point `t` is rows 2048·t … 2048·t + 2047
  of the first point set.
-/
import proofs.«107251_g41154376630568_cont_8to1_b_1840_21_alg».proof.Proof.KI.Frame
import proofs.«107251_g41154376630568_cont_8to1_b_1840_21_alg».proof.Proof.SpecBlock
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The first point set the launch memory holds: point `i`'s coordinate `k`. -/
def ptsA (c : Dev nD) : Fin 8192 → Fin 2 → EReal := fun i k => m ((c : Thread nD τ).loc main_arg0) (ix2 i k)
/-- The second point set. -/
def ptsB (c : Dev nD) : Fin 8192 → Fin 2 → EReal := fun j k => m ((c : Thread nD τ).loc main_arg1) (ix2 j k)

/-! ## The stacked rows -/

/-- An operation of three operands writes, at its result, its function of the three operands' contents. -/
theorem nary3_result {x a b y : Ref sig .tc}
    (f : ((k : Fin 3) → ((![x, a, b] : Fin 3 → Ref sig .tc) k).ty.Contents (Elt Ideal)) → y.ty.Contents (Elt Ideal)) (hxs hy)
    (X : Valuation τ sig (Elt Ideal)) :
    (StableHlo.nary (τ := τ) ![x, a, b] y f hxs hy).result X (Proc.devRef .tc y)
      = f (Fin.cons (X (Proc.devRef .tc x)) (Fin.cons (X (Proc.devRef .tc a)) (Fin.cons (X (Proc.devRef .tc b)) (fun i => i.elim0)))) := by
  rw [StableHlo.nary_result]; congr 1; funext k; fin_cases k <;> rfl

/-- Each host operation's result: at its own result buffer its value, at any other buffer what was there. -/
local macro "host_results" : tactic =>
  `(tactic| repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

/-- Column `k` of an [8192, 2] array as a vector of 8192 entries: the slice [0:8192, k:k+1] reshaped. -/
def colX (x : (⟨S8192x2, .f32⟩ : BufTy).Contents (Elt Ideal)) : FVec Ideal S8192 .f32 :=
  shapeCast S8192 (extractStridedSlice S8192x1 ![0, 0] x slices_S8192x2_S8192x1_0_0) shapeCasts_S8192x1_S8192
def colY (x : (⟨S8192x2, .f32⟩ : BufTy).Contents (Elt Ideal)) : FVec Ideal S8192 .f32 :=
  shapeCast S8192 (extractStridedSlice S8192x1 ![0, 1] x slices_S8192x2_S8192x1_0_1) shapeCasts_S8192x1_S8192
/-- The word of -2 at every one of 8192 entries. -/
def neg2 : FVec Ideal S8192 .f32 := broadcastInDim S8192 ![] bcast_S_S8192 (constant (F := Ideal) S_ .f32 0xC0000000#32)

/-- -2 times the first coordinates, -2 times the second coordinates, and the squared norms, each laid as one row. -/
def row0 (x : (⟨S8192x2, .f32⟩ : BufTy).Contents (Elt Ideal)) : FVec Ideal S1x8192 .f32 :=
  broadcastInDim S1x8192 ![1] bcast_S8192_S1x8192_1 (mulf (F := Ideal) neg2 (colX x))
def row1 (x : (⟨S8192x2, .f32⟩ : BufTy).Contents (Elt Ideal)) : FVec Ideal S1x8192 .f32 :=
  broadcastInDim S1x8192 ![1] bcast_S8192_S1x8192_1 (mulf (F := Ideal) neg2 (colY x))
def row2 (x : (⟨S8192x2, .f32⟩ : BufTy).Contents (Elt Ideal)) : FVec Ideal S1x8192 .f32 :=
  broadcastInDim S1x8192 ![1] bcast_S8192_S1x8192_1
    (addf (F := Ideal) (mulf (F := Ideal) (colX x) (colX x)) (mulf (F := Ideal) (colY x) (colY x)))

/-- The three rows stacked, as one function of the second point set's array. -/
def auxTerm (x : (⟨S8192x2, .f32⟩ : BufTy).Contents (Elt Ideal)) : FVec Ideal S3x8192 .f32 :=
  concatenate S3x8192 0 [⟨S1x8192, row0 x⟩, ⟨S1x8192, row1 x⟩, ⟨S1x8192, row2 x⟩]
    concatenates_S1x8192_S1x8192_S1x8192_S3x8192_d0

/-- The stacked array the region finds is that function of the second point set as launched. -/
theorem V14_eq (c : Dev nD) :
    (V (F := Ideal) m c main_v14 : S3x8192.Idx → EReal) = auxTerm (m ((c : Thread nD τ).loc main_arg1)) := by
  dsimp only [V, V0]
  simp only [hostOps0, List.flatten_cons, List.flatten_nil, List.append_nil]
  simp only [StableHlo.after_cons, StableHlo.after_nil]
  rw [nary3_result]
  host_results
  rfl

/-- The first column at entry `l` is the array at (l, 0): the slice keeps the row and the reshape of an [8192, 1]
    array to [8192] keeps the row-major position. -/
theorem colX_apply (x : (⟨S8192x2, .f32⟩ : BufTy).Contents (Elt Ideal)) (l : Fin 8192) :
    colX x (ix1 l) = x (ix2 l (0 : Fin 2)) := by
  unfold colX
  refine (shapeCast_apply _ shapeCasts_S8192x1_S8192 (ix1 l) (ix2 l (0 : Fin 1)) ?_).trans ?_
  · rw [Shape.rowMajor_val_two, Shape.rowMajor_val_one]
    show l.val * 1 + 0 = l.val
    omega
  · exact slice2_axis1_apply 0 x slices_S8192x2_S8192x1_0_0 l (0 : Fin 1) (0 : Fin 2) rfl

/-- The second column at entry `l` is the array at (l, 1). -/
theorem colY_apply (x : (⟨S8192x2, .f32⟩ : BufTy).Contents (Elt Ideal)) (l : Fin 8192) :
    colY x (ix1 l) = x (ix2 l (1 : Fin 2)) := by
  unfold colY
  refine (shapeCast_apply _ shapeCasts_S8192x1_S8192 (ix1 l) (ix2 l (0 : Fin 1)) ?_).trans ?_
  · rw [Shape.rowMajor_val_two, Shape.rowMajor_val_one]
    show l.val * 1 + 0 = l.val
    omega
  · exact slice2_axis1_apply 1 x slices_S8192x2_S8192x1_0_1 l (0 : Fin 1) (1 : Fin 2) rfl

/-- A vector of 8192 entries laid as one row reads, at (0, l), its entry `l`. -/
theorem oneRow_apply (v : FVec Ideal S8192 .f32) (l : Fin 8192) :
    (broadcastInDim S1x8192 ![1] bcast_S8192_S1x8192_1 v : FVec Ideal S1x8192 .f32) (ix2 (0 : Fin 1) l) = v (ix1 l) :=
  broadcastInDim_apply _ bcast_S8192_S1x8192_1 v (ix2 (0 : Fin 1) l) (ix1 l) (fun a => match a with
    | ⟨0, _⟩ => by show l.val = if (8192 : Nat) = 1 then 0 else l.val; rw [if_neg (by decide)])

/-- Row 0 of the stack: -2 times the first coordinates. -/
theorem auxTerm_row0 (x : (⟨S8192x2, .f32⟩ : BufTy).Contents (Elt Ideal)) (l : Fin 8192) :
    auxTerm x (ix2 (0 : Fin 3) l) = Cert.NearestMean.wNeg2 * x (ix2 l (0 : Fin 2)) := by
  unfold auxTerm
  refine Eq.trans (concatenate_apply_piece (0 : Fin S3x8192.rank) _ _
    (ix2 (0 : Fin 3) l) 0 ?_ S1x8192 (row0 x) ?_ rfl 0 ?_ (ix2 (0 : Fin 1) l) ?_ ?_) ?_
  · show (0 : Nat) < 3; omega
  · rfl
  · rfl
  · intro b hb; match b with | ⟨0, _⟩ => exact absurd rfl hb | ⟨1, _⟩ => rfl
  · rfl
  · unfold row0; rw [oneRow_apply, mulf_apply, colX_apply]; rfl

/-- Row 1: -2 times the second coordinates. -/
theorem auxTerm_row1 (x : (⟨S8192x2, .f32⟩ : BufTy).Contents (Elt Ideal)) (l : Fin 8192) :
    auxTerm x (ix2 (1 : Fin 3) l) = Cert.NearestMean.wNeg2 * x (ix2 l (1 : Fin 2)) := by
  unfold auxTerm
  refine Eq.trans (concatenate_apply_piece (0 : Fin S3x8192.rank) _ _
    (ix2 (1 : Fin 3) l) 1 ?_ S1x8192 (row1 x) ?_ rfl 1 ?_ (ix2 (0 : Fin 1) l) ?_ ?_) ?_
  · show (1 : Nat) < 3; omega
  · rfl
  · rfl
  · intro b hb; match b with | ⟨0, _⟩ => exact absurd rfl hb | ⟨1, _⟩ => rfl
  · rfl
  · unfold row1; rw [oneRow_apply, mulf_apply, colY_apply]; rfl

/-- Row 2: the squared norms. -/
theorem auxTerm_row2 (x : (⟨S8192x2, .f32⟩ : BufTy).Contents (Elt Ideal)) (l : Fin 8192) :
    auxTerm x (ix2 (2 : Fin 3) l)
      = x (ix2 l (0 : Fin 2)) * x (ix2 l (0 : Fin 2)) + x (ix2 l (1 : Fin 2)) * x (ix2 l (1 : Fin 2)) := by
  unfold auxTerm
  refine Eq.trans (concatenate_apply_piece (0 : Fin S3x8192.rank) _ _
    (ix2 (2 : Fin 3) l) 2 ?_ S1x8192 (row2 x) ?_ rfl 2 ?_ (ix2 (0 : Fin 1) l) ?_ ?_) ?_
  · show (2 : Nat) < 3; omega
  · rfl
  · rfl
  · intro b hb; match b with | ⟨0, _⟩ => exact absurd rfl hb | ⟨1, _⟩ => rfl
  · rfl
  · unfold row2; rw [oneRow_apply, addf_apply, mulf_apply, mulf_apply, colX_apply, colY_apply]

/-- The stacked array at (q, l) is row `q` of the three rows of the second point set, at column `l`. -/
theorem aux_apply (c : Dev nD) (q : Fin 3) (l : Fin 8192) :
    V (F := Ideal) m c main_v14 (ix2 q l) = Cert.NearestMean.auxOf (ptsB m c) q l := by
  have e := congrFun (V14_eq m c) (ix2 q l)
  refine e.trans ?_
  match q with
  | ⟨0, _⟩ => exact auxTerm_row0 _ l
  | ⟨1, _⟩ => exact auxTerm_row1 _ l
  | ⟨2, _⟩ => exact auxTerm_row2 _ l

/-! ## The windows' blocks at an index -/

/-- The printed index maps at every grid point: the first window's block index is (t, 0), the second's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The second window's block is the whole stacked array at every grid point. -/
theorem iblk1_apply (c : Dev nD) (t : Fin cfg0.N) (q : Fin 3) (l : Fin 8192) :
    iblk (F := Ideal) m c 1 t (ix2 q l) = Cert.NearestMean.auxOf (ptsB m c) q l := by
  unfold iblk
  show V (F := Ideal) m c main_v14 (((cfg0.win 1).blk t).view.emb (ix2 q l)) = _
  obtain ⟨-, -, e0, e1⟩ := idx_facts t
  have hi : ((cfg0.win 1).blk t).view.emb (ix2 q l) = ix2 q l := by
    funext a; apply Fin.ext
    match a with
    | ⟨0, _⟩ => show win0_1.index t (0 : Fin 2) * 3 + 1 * q.val = q.val; rw [e0]; omega
    | ⟨1, _⟩ => show win0_1.index t (1 : Fin 2) * 8192 + 1 * l.val = l.val; rw [e1]; omega
  rw [hi]
  exact aux_apply m c q l

/-- The first window's block at grid point `t` is rows 2048·t … 2048·t + 2047 of the first point set: an element of
    a block sits, on each axis, at the block index times the block's size plus its own coordinate. -/
theorem iblk0_apply (c : Dev nD) (t : Fin cfg0.N) (r : Fin 2048) (k : Fin 2) :
    iblk (F := Ideal) m c 0 t (ix2 r k)
      = ptsA m c (Cert.NearestMean.row ⟨t.val, by have := t.isLt; have h4 : cfg0.N = 4 := N_0; omega⟩ r) k := by
  unfold iblk
  show V (F := Ideal) m c main_arg0 (((cfg0.win 0).blk t).view.emb (ix2 r k)) = _
  rw [V_main_arg0]
  obtain ⟨e0, e1, -, -⟩ := idx_facts t
  unfold ptsA
  refine congrArg (m ((c : Thread nD τ).loc main_arg0)) ?_
  funext a; apply Fin.ext
  match a with
  | ⟨0, _⟩ => show win0_0.index t (0 : Fin 2) * 2048 + 1 * r.val = 2048 * t.val + r.val; rw [e0]; omega
  | ⟨1, _⟩ => show win0_0.index t (1 : Fin 2) * 2 + 1 * k.val = k.val; rw [e1]; omega

end Cert.KernelIdeal.Hand

end
-- ==== Proof.NearestAlgebra.lean ====
/-
  The two arrangements of the mean nearest-neighbour distance agree on real inputs.

  For real coordinates the squared distance from `a i` to `b j` expands as
  `(x₁·(-2·x₂) + (y₁·(-2·y₂) + (x₂² + y₂²))) + (x₁² + y₁²)`, a nonnegative real. A column `j₀` at which the
  first summand is least is also a column at which the squared distance, and hence (the root being monotone)
  the distance, is least; so both the eight joined runs of the kernel and the single fold of the reference
  pick the same real number, the distance from `a i` to `b j₀`. The mean is then a matter of regrouping a
  finite real sum into four blocks of 2048 and distributing the factor `1/8192`.
-/
import proofs.«107251_g41154376630568_cont_8to1_b_1840_21_alg».proof.Proof.Spec
import Idealize.ShloMosaic.PureOps.Ideal
import Mathlib.Data.Finset.Fold
import Mathlib.Algebra.BigOperators.Fin

noncomputable section

namespace Cert.NearestMean

open Idealize.ShloMosaic

namespace Alg

/-! ## The four constants -/

theorem wNeg2_eq : wNeg2 = ((-2 : ℝ) : EReal) := by
  simp [wNeg2, Ideal.ofBits, Ideal.ieee, -EReal.coe_mul]; norm_num

theorem wInf_eq : wInf = ⊤ := by
  simp [wInf, Ideal.ofBits, Ideal.ieee]

theorem wInvN_eq : wInvN = ((1 / 8192 : ℝ) : EReal) := by
  simp [wInvN, Ideal.ofBits, Ideal.ieee, -EReal.coe_mul]; norm_num

theorem wN_eq : wN = ((8192 : ℝ) : EReal) := by
  simp [wN, Ideal.ofBits, Ideal.ieee, -EReal.coe_mul]; norm_num

/-! ## A fold of `min` over reals is attained at a least column -/

/-- If `f` is least at `j₀` on `s`, the fold of `min` from `+∞` over the coercions is `f j₀`. -/
theorem fold_min_coe_eq {ι : Type*} (s : Finset ι) (f : ι → ℝ) (j0 : ι) (hj0 : j0 ∈ s)
    (h : ∀ j ∈ s, f j0 ≤ f j) :
    s.fold min (⊤ : EReal) (fun j => ((f j : ℝ) : EReal)) = ((f j0 : ℝ) : EReal) := by
  apply le_antisymm
  · exact (Finset.fold_min_le _).2 (Or.inr ⟨j0, hj0, le_rfl⟩)
  · exact (Finset.le_fold_min _).2 ⟨le_top, fun j hj => EReal.coe_le_coe_iff.2 (h j hj)⟩

/-! ## Columns and rows -/

/-- Every column lies in one of the eight runs. -/
theorem exists_col (j : Fin 8192) : ∃ k l, col k l = j := by
  refine ⟨⟨j.val / 1024, by have := j.isLt; omega⟩, ⟨j.val % 1024, Nat.mod_lt _ (by norm_num)⟩, ?_⟩
  apply Fin.ext
  simp only [col]
  omega

/-- Rows of blocks enumerate the rows once each. -/
theorem row_bijective : Function.Bijective (fun p : Fin 4 × Fin 2048 => row p.1 p.2) := by
  rw [Fintype.bijective_iff_injective_and_card]
  refine ⟨?_, by simp⟩
  rintro ⟨t, r⟩ ⟨t', r'⟩ h
  have h' : 2048 * t.val + r.val = 2048 * t'.val + r'.val := by
    simpa [row] using congrArg Fin.val h
  have := r.isLt; have := r'.isLt
  have ht : t.val = t'.val := by omega
  have hr : r.val = r'.val := by omega
  exact Prod.ext (Fin.ext ht) (Fin.ext hr)

/-- A sum over the 8192 rows is the sum over the four blocks of the block sums. -/
theorem sum_rows (D : Fin 8192 → ℝ) : ∑ i, D i = ∑ t : Fin 4, ∑ r : Fin 2048, D (row t r) := by
  rw [← Fintype.sum_prod_type (f := fun p : Fin 4 × Fin 2048 => D (row p.1 p.2))]
  exact (Fintype.sum_bijective _ row_bijective _ _ (fun _ => rfl)).symm

/-- A finite sum of coerced reals is the coercion of the real sum. -/
theorem coe_finset_sum {ι : Type*} (s : Finset ι) (f : ι → ℝ) :
    ∑ x ∈ s, ((f x : ℝ) : EReal) = ((∑ x ∈ s, f x : ℝ) : EReal) := by
  classical
  induction s using Finset.induction_on with
  | empty => simp
  | insert x s hx ih => rw [Finset.sum_insert hx, Finset.sum_insert hx, ih, EReal.coe_add]

/-! ## The pieces over the reals -/

section Real

/-- A real point set read in the extended reals. -/
def up (x : Fin 8192 → Fin 2 → ℝ) : Fin 8192 → Fin 2 → EReal := fun i k => ((x i k : ℝ) : EReal)

variable (ar br : Fin 8192 → Fin 2 → ℝ)

/-- The cross term, the squared norm of `a i`, and the squared distance, over the reals. -/
def crossR (i j : Fin 8192) : ℝ :=
  ar i 0 * (-2 * br j 0) + (ar i 1 * (-2 * br j 1) + (br j 0 * br j 0 + br j 1 * br j 1))
def n1R (i : Fin 8192) : ℝ := ar i 0 * ar i 0 + ar i 1 * ar i 1
def dsqR (i j : Fin 8192) : ℝ :=
  (ar i 0 - br j 0) * (ar i 0 - br j 0) + (ar i 1 - br j 1) * (ar i 1 - br j 1)

/-- The expansion of the square. -/
theorem dsqR_eq (i j : Fin 8192) : dsqR ar br i j = crossR ar br i j + n1R ar i := by
  unfold dsqR crossR n1R; ring

theorem dsqR_nonneg (i j : Fin 8192) : 0 ≤ dsqR ar br i j :=
  add_nonneg (mul_self_nonneg _) (mul_self_nonneg _)

theorem cross_up (i j : Fin 8192) : cross (up ar) (up br) i j = ((crossR ar br i j : ℝ) : EReal) := by
  simp only [cross, xs, ys, b2, up, crossR]
  rw [wNeg2_eq]
  norm_cast

theorem n1_up (i : Fin 8192) : n1 (up ar) i = ((n1R ar i : ℝ) : EReal) := by
  simp only [n1, up, n1R]
  norm_cast

theorem rDist_up (i j : Fin 8192) :
    rDist (up ar) (up br) i j = ((Real.sqrt (dsqR ar br i j) : ℝ) : EReal) := by
  have h : (0 : EReal) + ∑ k : Fin 2, (up ar i k - up br j k) * (up ar i k - up br j k)
      = ((dsqR ar br i j : ℝ) : EReal) := by
    rw [Fin.sum_univ_two, zero_add]
    simp only [up, dsqR]
    norm_cast
  rw [rDist, h, Ideal.sqrt_coe, if_neg (not_lt.2 (dsqR_nonneg ar br i j))]

/-- For each row the kernel's distance and the reference's nearest distance are one and the same real. -/
theorem kDist_rMin_up (i : Fin 8192) :
    ∃ d : ℝ, kDist (up ar) (up br) i = (d : EReal) ∧ rMin (up ar) (up br) i = (d : EReal) := by
  obtain ⟨j0, -, hj0⟩ := Finset.exists_min_image Finset.univ (crossR ar br i) ⟨0, Finset.mem_univ _⟩
  have hmin : ∀ j, crossR ar br i j0 ≤ crossR ar br i j := fun j => hj0 j (Finset.mem_univ _)
  refine ⟨Real.sqrt (dsqR ar br i j0), ?_, ?_⟩
  · -- every run is at least the least cross term
    have hrun : ∀ k, ((crossR ar br i j0 : ℝ) : EReal) ≤ runMin (up ar) (up br) i k := by
      intro k
      rw [runMin]
      refine (Finset.le_fold_min _).2 ⟨by rw [wInf_eq]; exact le_top, fun l _ => ?_⟩
      rw [cross_up]
      exact EReal.coe_le_coe_iff.2 (hmin _)
    have hcm : crossMin (up ar) (up br) i = ((crossR ar br i j0 : ℝ) : EReal) := by
      apply le_antisymm
      · -- the run holding `j₀` is at most its cross term, and the join is at most each run
        obtain ⟨k, l, hkl⟩ := exists_col j0
        have h1 : runMin (up ar) (up br) i k ≤ ((crossR ar br i j0 : ℝ) : EReal) := by
          rw [runMin]
          refine (Finset.fold_min_le _).2 (Or.inr ⟨l, Finset.mem_univ _, ?_⟩)
          rw [hkl, cross_up]
        have h2 : crossMin (up ar) (up br) i ≤ runMin (up ar) (up br) i k := by
          rw [crossMin]
          rcases k with ⟨k, hk⟩
          interval_cases k <;> simp [min_le_iff]
        exact h2.trans h1
      · rw [crossMin]
        exact le_min (le_min (le_min (le_min (le_min (le_min (le_min (hrun 0) (hrun 1)) (hrun 2))
          (hrun 3)) (hrun 4)) (hrun 5)) (hrun 6)) (hrun 7)
    have h0 : (0 : EReal) ≤ ((dsqR ar br i j0 : ℝ) : EReal) := by
      exact_mod_cast dsqR_nonneg ar br i j0
    rw [kDist, hcm, n1_up, ← EReal.coe_add, ← dsqR_eq, max_eq_left h0, Ideal.sqrt_coe,
      if_neg (not_lt.2 (dsqR_nonneg ar br i j0))]
  · -- the root is monotone, so the nearest distance is attained at `j₀` too
    have hfun : (fun j => rDist (up ar) (up br) i j)
        = fun j => ((Real.sqrt (dsqR ar br i j) : ℝ) : EReal) := funext fun j => rDist_up ar br i j
    rw [rMin, wInf_eq, hfun]
    refine fold_min_coe_eq Finset.univ (fun j => Real.sqrt (dsqR ar br i j)) j0 (Finset.mem_univ _)
      (fun j _ => Real.sqrt_le_sqrt ?_)
    rw [dsqR_eq, dsqR_eq]
    linarith [hmin j]

/-- The two results agree on real point sets. -/
theorem kernelOut_eq_refOut_up : kernelOut (up ar) (up br) = refOut (up ar) (up br) := by
  choose D hk hr using kDist_rMin_up ar br
  have hb : ∀ t, blockSum (up ar) (up br) t
      = (((∑ r : Fin 2048, D (row t r)) * (1 / 8192) : ℝ) : EReal) := by
    intro t
    rw [blockSum, wInvN_eq]
    simp only [hk]
    rw [coe_finset_sum, ← EReal.coe_mul]
  have hs : (∑ i : Fin 8192, rMin (up ar) (up br) i) = ((∑ i : Fin 8192, D i : ℝ) : EReal) := by
    simp only [hr]
    rw [coe_finset_sum]
  rw [kernelOut, refOut, hb, hb, hb, hb, hs, wN_eq, Ideal.div_coe (by norm_num), zero_add, zero_add,
    sum_rows, Fin.sum_univ_four]
  norm_cast
  ring

end Real

end Alg

open Alg in
/-- On real inputs the kernel's arrangement and the reference's give the same number. -/
theorem kernelOut_eq_refOut (a b : Fin 8192 → Fin 2 → EReal)
    (ha : ∀ i k, ∃ r : ℝ, a i k = (r : EReal)) (hb : ∀ j k, ∃ r : ℝ, b j k = (r : EReal)) :
    kernelOut a b = refOut a b := by
  choose ar har using ha
  choose br hbr using hb
  have ha' : a = up ar := funext fun i => funext fun k => har i k
  have hb' : b = up br := funext fun j => funext fun k => hbr j k
  rw [ha', hb']
  exact kernelOut_eq_refOut_up ar br

end Cert.NearestMean

end
-- ==== Proof.RefValue.lean ====
/-
  The reference's result, read off its run one operation at a time, is `NearestMean.refOut` of the two point sets;
  and the precondition makes every coordinate a real number.
-/
import proofs.«107251_g41154376630568_cont_8to1_b_1840_21_alg».proof.Proof.Gen.ReferenceIdeal.Read
import proofs.«107251_g41154376630568_cont_8to1_b_1840_21_alg».proof.Proof.Gen.Pre_finite_inputs
import proofs.«107251_g41154376630568_cont_8to1_b_1840_21_alg».proof.Proof.Spec
import Idealize.ShloMosaic.Lib.ValueIdx
import Idealize.ShloMosaic.Lib.Pipeline.Value
import Idealize.ShloMosaic.Lib.ValueLayout
import Idealize.ShloMosaic.Lib.ReduceAll
import Idealize.ShloMosaic.PureOps.Ideal.Laws

noncomputable section

namespace Cert.ReferenceIdeal.RefValue

open Idealize.ShloMosaic Idealize.ShloMosaic.TcCoe Idealize.SL.Sem Idealize.ShloMosaic.ValueIdx

/-! ## The precondition: every coordinate is a real number -/

/-- The scalar shape has one index. -/
instance : Subsingleton Cert.Pre_finite_inputs.S_.Idx := ⟨fun a b => funext fun d => d.elim0⟩

/-- An extended real whose absolute value `max x (-x)` compares below the word of `+∞` is a real number:
    at `⊤` and at `⊥` the absolute value is `⊤`, which is not below itself. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have hInf : Ideal.ofBits .f32 0x7F800000#32 = (⊤ : EReal) := by simp [Ideal.ofBits, Ideal.ieee]
  rw [Ideal.hostAbsf_def, Ideal.absf_def, Ideal.cmpf_def, Ideal.ofBits_def, hInf] at h
  induction x using EReal.rec with
  | bot => simp [Ideal.cmp] at h
  | coe r => exact ⟨r, rfl⟩
  | top => simp [Ideal.cmp] at h

/-- Under `finite_inputs` (both `jnp.all (|x| < +∞)` are one) every entry of both arrays is a real number. -/
theorem real_of_pre [Cert.Pre_finite_inputs.Facts] (A B : FVec Ideal Cert.Pre_finite_inputs.S8192x2 .f32)
    (h : Cert.Pre_finite_inputs.fn (F := Ideal) A B = fun _ => 1#1) :
    (∀ i, ∃ r : ℝ, A i = (r : EReal)) ∧ (∀ i, ∃ r : ℝ, B i = (r : EReal)) := by
  have e := congrFun h ValueIdx.ix0
  dsimp only [Cert.Pre_finite_inputs.fn] at e
  obtain ⟨eA, eB⟩ := IntOp.andi_eq_one.1 e
  refine ⟨fun i => real_of_abs_lt (A i) ?_, fun i => real_of_abs_lt (B i) ?_⟩
  · exact Host.reduce_andi_all _ _ _ _ _ eA i
  · exact Host.reduce_andi_all _ _ _ _ _ eB i

/-! ## The reference's result is the specification -/

section Result

variable (A B : (⟨S8192x2, .f32⟩ : BufTy).Contents (Elt Ideal))

/-- Entry (i, j, k) of the first array broadcast along the middle axis is entry (i, k). -/
theorem idx_left (i j : Fin 8192) (k : Fin 2) :
    Read.idx_main_v0 (Read.idx_main_v2 (Read.idx_main_v6 (ix2 i j) k)) = ix2 i k :=
  funext fun a => Fin.ext (by match a with | ⟨0, _⟩ => rfl | ⟨1, _⟩ => rfl)

/-- Entry (i, j, k) of the second array broadcast along the first axis is entry (j, k). -/
theorem idx_right (i j : Fin 8192) (k : Fin 2) :
    Read.idx_main_v1 (Read.idx_main_v3 (Read.idx_main_v6 (ix2 i j) k)) = ix2 j k :=
  funext fun a => Fin.ext (by match a with | ⟨0, _⟩ => rfl | ⟨1, _⟩ => rfl)

/-- Entry (i, j) of the matrix of roots is the distance from point `i` of the first set to point `j` of the second. -/
theorem dist_apply (i j : Fin 8192) :
    Read.val_main_v7 (F := Ideal) A B (ix2 i j) = Cert.NearestMean.rDist (fun i k => A (ix2 i k)) (fun j k => B (ix2 j k)) i j := by
  rw [Read.val_main_v7_apply, Read.val_main_v6_apply, Read.val_main_cst_apply]
  simp only [Read.val_main_v5_apply, Read.val_main_v4_apply, Read.val_main_v2_apply, Read.val_main_v3_apply,
    Read.val_main_v0_apply, Read.val_main_v1_apply, idx_left, idx_right, Ideal.hostUnary_sqrt_def, Ideal.subf_def,
    Ideal.mulf_def, Ideal.ofBits_def, Ideal.ofBits_zero_f32]
  rfl

/-- Row `i` of the matrix with column `k` put back is entry (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with | ⟨0, _⟩ => rfl | ⟨1, _⟩ => rfl

/-- The minimum over a row of the matrix of distances, a fold of `min` from `+∞` over the row's 8192 columns. -/
theorem min_apply (i : Fin 8192) :
    Read.val_main_v8 (F := Ideal) A B (ix1 i) = Cert.NearestMean.rMin (fun i k => A (ix2 i k)) (fun j k => B (ix2 j k)) i := by
  unfold Read.val_main_v8
  have h : S8192x8192.Reduces [1] S8192 := by decide
  rw [Host.reduce_eq_fold_single FloatOps.minimumf _ _ Facts₀.reducesTo_S8192x8192_S8192_d1 h Facts₀.h_S_]
  have hf : (Read.val_main_v7 (F := Ideal) A B ∘ h.lift (ix1 i))
      = fun j : Fin 8192 => Cert.NearestMean.rDist (fun i k => A (ix2 i k)) (fun j k => B (ix2 j k)) i j :=
    funext fun k => by rw [Function.comp_apply, lift_row, dist_apply]; rfl
  rw [hf, Read.val_main_cst_0_apply]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's one result entry is the specification's `refOut` of the two point sets: the sum over the
    8192 rows of the row minima, from 0, divided by 8192. -/
theorem result_eq :
    Read.val_main_v10 (F := Ideal) A B = fun _ => Cert.NearestMean.refOut (fun i k => A (ix2 i k)) (fun j k => B (ix2 j k)) := by
  funext z
  rw [Read.val_main_v10_apply, Read.val_main_v9_apply, Read.val_main_cst_1_apply, Read.val_main_cst_2_apply,
    sum_idx1]
  simp only [min_apply, Ideal.hostDivf_def, Ideal.ofBits_def, Ideal.ofBits_zero_f32]
  rfl

end Result

/-! ## The reference's run, with its result named by the specification -/

section Run
open Cert.ReferenceIdeal Idealize.ShloMosaic.StableHlo

/-- Every run of the reference ends with its one result entry at `refOut` of the two point sets the arguments
    hold, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
        = (fun _ => Cert.NearestMean.refOut (fun i k => m ((c.tc : Thread nD τ).loc main_arg0) (ix2 i k))
            (fun j k => m ((c.tc : Thread nD τ).loc main_arg1) (ix2 j k)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).1, Read.val_main_v10_eq, result_eq]; rfl, (h c).2⟩)
    (Value.run (F := Ideal) m ρ)

end Run

end Cert.ReferenceIdeal.RefValue

end
-- ==== Proof.Bridge.lean ====
/-
  The two idealized programs end with equal results. The kernel's scalar result is four steps from zero over the four
  blocks of the first point set — `NearestMean.kernelOut` of the two point sets —, the reference's is
  `NearestMean.refOut` of them, and for real coordinates the two are one number: the squared distance expanded,
  the minimum over the second set taken in eight runs, the root moved inside the minimum, the mean taken block by block.
-/
import proofs.«107251_g41154376630568_cont_8to1_b_1840_21_alg».proof.Defs
import proofs.«107251_g41154376630568_cont_8to1_b_1840_21_alg».proof.Proof.KI.Value
import proofs.«107251_g41154376630568_cont_8to1_b_1840_21_alg».proof.Proof.KI.StepRead
import proofs.«107251_g41154376630568_cont_8to1_b_1840_21_alg».proof.Proof.KI.Arrays
import proofs.«107251_g41154376630568_cont_8to1_b_1840_21_alg».proof.Proof.SpecBlock
import proofs.«107251_g41154376630568_cont_8to1_b_1840_21_alg».proof.Proof.NearestAlgebra
import proofs.«107251_g41154376630568_cont_8to1_b_1840_21_alg».proof.Proof.RefValue
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-- The output's entry after the last point: four steps from zero, each over its block of the first point set and the
    three stacked rows of the second. -/
theorem chain_apply (c : Dev nD) (h : 3 < cfg0.N) (j : S1x1.Idx) :
    chain (F := Ideal) m c 3 h j = Cert.NearestMean.kernelOut (ptsA m c) (ptsB m c) := by
  rw [Cert.NearestMean.kernelOut_eq_steps]
  simp only [chain]
  rw [step_apply, step_apply, step_apply, step_apply, pay8_apply]
  simp only [iblk1_apply m]
  have e : ∀ (n : ℕ) (hn : n < cfg0.N) (t' : Fin 4), t'.val = n →
      (fun (r : Fin 2048) (k : Fin 2) => iblk (F := Ideal) m c 0 ⟨n, hn⟩ (ix2 r k)) = fun r => ptsA m c (Cert.NearestMean.row t' r) :=
    fun n hn t' ht => funext fun r => funext fun k => by
      rw [iblk0_apply m c ⟨n, hn⟩ r k]
      exact congrArg (fun t'' => ptsA m c (Cert.NearestMean.row t'' r) k) (Fin.ext ht.symm)
  rw [e 3 _ 3 rfl, e 2 _ 2 rfl, e 1 _ 1 rfl, e 0 _ 0 rfl]

/-- The scalar result is the kernel's arrangement of the two point sets. -/
theorem result_eq (c : Dev nD) :
    (shapeCast S_ (result (F := Ideal) m c) shapeCasts_S1x1_S_ : S_.Idx → EReal)
      = fun _ => Cert.NearestMean.kernelOut (ptsA m c) (ptsB m c) := by
  funext y
  unfold shapeCast
  exact chain_apply m c _ _

omit m in
/-- From memories agreeing on the two point sets, both programs run to the end with the same scalar: the kernel's
    arrangement on one side, the reference's on the other, equal because the precondition makes every coordinate real. -/
theorem algebraic : Cert.algebraic_KernelIdeal_ReferenceIdeal := by
  intro m ρ m' ρ' hpre hagree
  refine ⟨fun c => fun _ => Cert.NearestMean.kernelOut (ptsA m c) (ptsB m c), ?_, ?_⟩
  · refine (θ_run Cert.KernelIdeal.defs _ _).mono (fun _ h c => ⟨(h c).1.trans ?_, (h c).2⟩) (run (F := Ideal) m ρ)
    exact result_eq m c
  · refine (θ_run Cert.ReferenceIdeal.defs _ _).mono (fun _ h c => ⟨(h c).1.trans ?_, (h c).2⟩)
      (Cert.ReferenceIdeal.RefValue.run_spec m' ρ')
    rw [(hagree c).1, (hagree c).2]
    obtain ⟨ha, hb⟩ := Cert.ReferenceIdeal.RefValue.real_of_pre _ _ (hpre c)
    funext _
    exact (Cert.NearestMean.kernelOut_eq_refOut (ptsA m c) (ptsB m c) (fun i k => ha (ix2 i k)) (fun j k => hb (ix2 j k))).symm

end Cert.KernelIdeal.Hand

end
-- ==== Proof.lean ====
/-
  The mean distance from each of 8192 points of the plane to the nearest of 8192 others, computed two ways, and the
  claim that the two programs agree on the extended reals when every coordinate is finite.

  The kernel walks the first point set in four blocks of 2048 rows. For a row `(x₁, y₁)` it expands the squared distance
  to a point `(x₂, y₂)` of the second set as `(x₁·(-2x₂) + (y₁·(-2y₂) + (x₂² + y₂²))) + (x₁² + y₁²)`, takes the minimum of
  the first summand over the second set in eight runs of 1024, adds the row's squared norm, clamps at zero, takes the
  root, sums the block's roots, scales by 1/8192 and adds the result to a running total kept in the one output entry,
  which is reset at the first block. The reference takes the root of each squared distance, the minimum over the
  second set and the mean over the first. Over the reals these are one number: the expansion is an identity, the
  minimum over 8192 columns is the minimum of the eight run minima, adding a constant and taking a root commute
  with a minimum (the root is monotone and the squared distances are non-negative, so the clamp is idle), and a
  sum of four block sums each scaled by 1/8192 is the whole sum divided by 8192.

  The three frames: the word-level kernel and the idealized kernel by one argument over any float instance
  (each grid point run once, at the first point and at a later point; the output entry carried from point to point
  and written back after the last), the reference by its own run. The idealization rewrote nothing.
-/
import proofs.«107251_g41154376630568_cont_8to1_b_1840_21_alg».proof.Defs
import proofs.«107251_g41154376630568_cont_8to1_b_1840_21_alg».proof.Proof.Gen.Kernel
import proofs.«107251_g41154376630568_cont_8to1_b_1840_21_alg».proof.Proof.Gen.Kernel.Skeleton
import proofs.«107251_g41154376630568_cont_8to1_b_1840_21_alg».proof.Proof.Gen.Kernel.Launch
import proofs.«107251_g41154376630568_cont_8to1_b_1840_21_alg».proof.Proof.Gen.Kernel.Points
import proofs.«107251_g41154376630568_cont_8to1_b_1840_21_alg».proof.Proof.Gen.KernelIdeal
import proofs.«107251_g41154376630568_cont_8to1_b_1840_21_alg».proof.Proof.Gen.KernelIdeal.Skeleton
import proofs.«107251_g41154376630568_cont_8to1_b_1840_21_alg».proof.Proof.Gen.KernelIdeal.Launch
import proofs.«107251_g41154376630568_cont_8to1_b_1840_21_alg».proof.Proof.Gen.KernelIdeal.Points
import proofs.«107251_g41154376630568_cont_8to1_b_1840_21_alg».proof.Proof.Gen.ReferenceIdeal
import proofs.«107251_g41154376630568_cont_8to1_b_1840_21_alg».proof.Proof.Gen.ReferenceIdeal.Run
import proofs.«107251_g41154376630568_cont_8to1_b_1840_21_alg».proof.Proof.Gen.Pre_finite_inputs
import proofs.«107251_g41154376630568_cont_8to1_b_1840_21_alg».proof.Proof.K.Frame
import proofs.«107251_g41154376630568_cont_8to1_b_1840_21_alg».proof.Proof.KI.Frame
import proofs.«107251_g41154376630568_cont_8to1_b_1840_21_alg».proof.Proof.Bridge
import Idealize.ShloMosaic.Adequacy
import Idealize.ShloMosaic.Init

noncomputable section

namespace Cert.Proof

open Idealize.ShloMosaic Idealize.SL.Sem

/-- The word-level kernel runs to the end and leaves both point sets as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.KernelIdeal.Hand.algebraic⟩

end Cert.Proof

end
